-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x64 .f32) (main_arg2 : IVec S1600000 32) (main_arg3 : IVec S1600000 32) (main_arg4 : FVec F S192x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩
abbrev S1600000x1 : Shape := ⟨2, ![1600000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 28
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S192x64 : Shape := ⟨2, ![192, 64]⟩
abbrev S64 : Shape := ⟨1, ![64]⟩
abbrev S_ : Shape := ⟨0, ![]⟩
abbrev S1600000x1 : Shape := ⟨2, ![1600000, 1]⟩
abbrev S100000x192 : Shape := ⟨2, ![100000, 192]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x192, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.BlockRows.lean ====
/-
  The kernel's blocks as rows of the arrays they are cut from.

  The grid has 20 points; at point t the three row-blocked inputs (the node features and the two summed arrays) and
  the output are at block row t, that is rows 5000·t … 5000·t + 4999 of their arrays, and the three 64-row weight
  bands and the one-row bias are at block (0, 0): whole. An element of a block sits in its array, on each axis, at the
  block's position times the block's extent plus its own coordinate.
-/
import proofs.«152367_j64158221468060_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.BlockRows

open Cert.KernelIdeal Cert.KernelIdeal.Facts₀ Cert.KernelIdeal.Gen Cert.KernelIdeal.Value Idealize.ShloMosaic.ValueIdx

/-- Row `r` lies in the block of 5000 rows numbered `r / 5000`. -/
theorem row_in_block (r : ℕ) : r / 5000 * 5000 ≤ r ∧ r < r / 5000 * 5000 + 5000 := by omega

/-- 100000 rows make 20 such blocks. -/
theorem block_lt (r : ℕ) (hr : r < 100000) : r / 5000 < 20 := by omega

/-- Row `p` of block `t` is a row of the array. -/
theorem row_lt (t p : ℕ) (ht : t < 20) (hp : p < 5000) : t * 5000 + p < 100000 := by omega

theorem zero_offsets : (![0, 0] : Fin 2 → Nat) = fun _ => 0 := funext fun a => by fin_cases a <;> rfl

/-- Where each window's block sits at point `t`: the three row-blocked inputs and the output at block row `t`, the
    bands and the bias at block (0, 0). Decided over the 20 points. -/
theorem block_positions : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## Each input block as rows of the array it is cut from (any array of the right shape) -/

/-- The first row-blocked input's block at point `t`: rows 5000·t … of its array. -/
theorem rows_h (A : (⟨S100000x64, .f32⟩ : BufTy).Contents (Elt Ideal)) (t : Fin cfg0.N) (p : Fin 5000) (k : Fin 64) (i : Fin 100000)
    (hi : i.val = t.val * 5000 + p.val) :
    ((cfg0.win 0).blk t).view.read (Elt Ideal) A (ix2 p k) = A (ix2 i k) := by
  obtain ⟨⟨e0, e1⟩, -⟩ := block_positions t
  show A (((cfg0.win 0).blk t).view.emb (ix2 p k)) = A (ix2 i k)
  refine congrArg A (funext fun a => Fin.ext ?_)
  match a with
  | ⟨0, _⟩ => show win0_0.index t (0 : Fin 2) * 5000 + 1 * p.val = i.val; rw [e0, hi, Nat.one_mul]
  | ⟨1, _⟩ => show win0_0.index t (1 : Fin 2) * 64 + 1 * k.val = k.val; rw [e1, Nat.zero_mul, Nat.zero_add, Nat.one_mul]

/-- The second row-blocked input's block at point `t`. -/
theorem rows_a (A : (⟨S100000x64, .f32⟩ : BufTy).Contents (Elt Ideal)) (t : Fin cfg0.N) (p : Fin 5000) (k : Fin 64) (i : Fin 100000)
    (hi : i.val = t.val * 5000 + p.val) :
    ((cfg0.win 1).blk t).view.read (Elt Ideal) A (ix2 p k) = A (ix2 i k) := by
  obtain ⟨-, ⟨e0, e1⟩, -⟩ := block_positions t
  show A (((cfg0.win 1).blk t).view.emb (ix2 p k)) = A (ix2 i k)
  refine congrArg A (funext fun a => Fin.ext ?_)
  match a with
  | ⟨0, _⟩ => show win0_1.index t (0 : Fin 2) * 5000 + 1 * p.val = i.val; rw [e0, hi, Nat.one_mul]
  | ⟨1, _⟩ => show win0_1.index t (1 : Fin 2) * 64 + 1 * k.val = k.val; rw [e1, Nat.zero_mul, Nat.zero_add, Nat.one_mul]

/-- The third row-blocked input's block at point `t`. -/
theorem rows_e (A : (⟨S100000x64, .f32⟩ : BufTy).Contents (Elt Ideal)) (t : Fin cfg0.N) (p : Fin 5000) (k : Fin 64) (i : Fin 100000)
    (hi : i.val = t.val * 5000 + p.val) :
    ((cfg0.win 2).blk t).view.read (Elt Ideal) A (ix2 p k) = A (ix2 i k) := by
  obtain ⟨-, -, ⟨e0, e1⟩, -⟩ := block_positions t
  show A (((cfg0.win 2).blk t).view.emb (ix2 p k)) = A (ix2 i k)
  refine congrArg A (funext fun a => Fin.ext ?_)
  match a with
  | ⟨0, _⟩ => show win0_2.index t (0 : Fin 2) * 5000 + 1 * p.val = i.val; rw [e0, hi, Nat.one_mul]
  | ⟨1, _⟩ => show win0_2.index t (1 : Fin 2) * 64 + 1 * k.val = k.val; rw [e1, Nat.zero_mul, Nat.zero_add, Nat.one_mul]

/-- Every point sees the first weight band whole. -/
theorem whole_w0 (A : (⟨S64x64, .f32⟩ : BufTy).Contents (Elt Ideal)) (t : Fin cfg0.N) (k q : Fin 64) :
    ((cfg0.win 3).blk t).view.read (Elt Ideal) A (ix2 k q) = A (ix2 k q) := by
  obtain ⟨-, -, -, ⟨e0, e1⟩, -⟩ := block_positions t
  show A (((cfg0.win 3).blk t).view.emb (ix2 k q)) = A (ix2 k q)
  refine congrArg A (funext fun a => Fin.ext ?_)
  match a with
  | ⟨0, _⟩ => show win0_3.index t (0 : Fin 2) * 64 + 1 * k.val = k.val; rw [e0, Nat.zero_mul, Nat.zero_add, Nat.one_mul]
  | ⟨1, _⟩ => show win0_3.index t (1 : Fin 2) * 64 + 1 * q.val = q.val; rw [e1, Nat.zero_mul, Nat.zero_add, Nat.one_mul]

/-- Every point sees the second weight band whole. -/
theorem whole_w1 (A : (⟨S64x64, .f32⟩ : BufTy).Contents (Elt Ideal)) (t : Fin cfg0.N) (k q : Fin 64) :
    ((cfg0.win 4).blk t).view.read (Elt Ideal) A (ix2 k q) = A (ix2 k q) := by
  obtain ⟨-, -, -, -, ⟨e0, e1⟩, -⟩ := block_positions t
  show A (((cfg0.win 4).blk t).view.emb (ix2 k q)) = A (ix2 k q)
  refine congrArg A (funext fun a => Fin.ext ?_)
  match a with
  | ⟨0, _⟩ => show win0_4.index t (0 : Fin 2) * 64 + 1 * k.val = k.val; rw [e0, Nat.zero_mul, Nat.zero_add, Nat.one_mul]
  | ⟨1, _⟩ => show win0_4.index t (1 : Fin 2) * 64 + 1 * q.val = q.val; rw [e1, Nat.zero_mul, Nat.zero_add, Nat.one_mul]

/-- Every point sees the third weight band whole. -/
theorem whole_w2 (A : (⟨S64x64, .f32⟩ : BufTy).Contents (Elt Ideal)) (t : Fin cfg0.N) (k q : Fin 64) :
    ((cfg0.win 5).blk t).view.read (Elt Ideal) A (ix2 k q) = A (ix2 k q) := by
  obtain ⟨-, -, -, -, -, ⟨e0, e1⟩, -⟩ := block_positions t
  show A (((cfg0.win 5).blk t).view.emb (ix2 k q)) = A (ix2 k q)
  refine congrArg A (funext fun a => Fin.ext ?_)
  match a with
  | ⟨0, _⟩ => show win0_5.index t (0 : Fin 2) * 64 + 1 * k.val = k.val; rw [e0, Nat.zero_mul, Nat.zero_add, Nat.one_mul]
  | ⟨1, _⟩ => show win0_5.index t (1 : Fin 2) * 64 + 1 * q.val = q.val; rw [e1, Nat.zero_mul, Nat.zero_add, Nat.one_mul]

/-- Every point sees the one-row bias array whole. -/
theorem whole_b (A : (⟨S1x64, .f32⟩ : BufTy).Contents (Elt Ideal)) (t : Fin cfg0.N) (u : Fin 1) (q : Fin 64) :
    ((cfg0.win 6).blk t).view.read (Elt Ideal) A (ix2 u q) = A (ix2 u q) := by
  obtain ⟨-, -, -, -, -, -, ⟨e0, e1⟩, -⟩ := block_positions t
  show A (((cfg0.win 6).blk t).view.emb (ix2 u q)) = A (ix2 u q)
  refine congrArg A (funext fun a => Fin.ext ?_)
  match a with
  | ⟨0, _⟩ => show win0_6.index t (0 : Fin 2) * 1 + 1 * u.val = u.val; rw [e0, Nat.zero_mul, Nat.zero_add, Nat.one_mul]
  | ⟨1, _⟩ => show win0_6.index t (1 : Fin 2) * 64 + 1 * q.val = q.val; rw [e1, Nat.zero_mul, Nat.zero_add, Nat.one_mul]

/-! ## The output's blocks -/

/-- What a write-back takes of a block's contents `X`: at (p, q), `X` at (p, q) — the blocks tile the array, so
    nothing of a block is cut off. -/
theorem written_apply (X : S5000x64.Idx → EReal) (t : Fin cfg0.N) (p : Fin 5000) (q : Fin 64) :
    (cfg0.win 7).cut (grid0.coords t) X (ix2 p q) = X (ix2 p q) := by
  show X ((cfg0.win 7).xinj (grid0.coords t) (ix2 p q)) = X (ix2 p q)
  refine congrArg X (funext fun a => ?_)
  match a with
  | ⟨0, _⟩ => rfl
  | ⟨1, _⟩ => rfl

/-- Element (p, q) of the output's block at point `t` sits at row 5000·t + p, column q of the output. -/
theorem out_position (t : Fin cfg0.N) (p : Fin 5000) (q : Fin 64) (i : Fin 100000) (hi : i.val = t.val * 5000 + p.val) :
    ((cfg0.win 7).blk t).view.emb (ix2 p q) = ix2 i q := by
  obtain ⟨-, -, -, -, -, -, -, e0, e1⟩ := block_positions t
  refine funext fun a => Fin.ext ?_
  match a with
  | ⟨0, _⟩ => show win0_7.index t (0 : Fin 2) * 5000 + 1 * p.val = i.val; rw [e0, hi, Nat.one_mul]
  | ⟨1, _⟩ => show win0_7.index t (1 : Fin 2) * 64 + 1 * q.val = q.val; rw [e1, Nat.zero_mul, Nat.zero_add, Nat.one_mul]

/-- An index of the output array is in point `t`'s block iff each coordinate is in the block's range on its axis. -/
theorem mem_block (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v17).slice (win0_7.rect t)).set ↔ _
  rw [View.set_slice_whole, Rect.mem_set_unit]
  exact Iff.rfl

/-- Row r of the output is written by point r / 5000: the blocks fill the array. -/
theorem cover (i : S100000x64.Idx) :
    ∃ t : Fin cfg0.N, (cfg0.win 7).flush t = true ∧ i ∈ ((cfg0.win 7).blk t).view.set := by
  have hN : cfg0.N = 20 := N_0
  have hlt : (i 0).val / 5000 < cfg0.N := hN ▸ block_lt (i 0).val (idx2_lt0 i)
  obtain ⟨t, ht⟩ : ∃ t : Fin cfg0.N, t.val = (i 0).val / 5000 := ⟨⟨(i 0).val / 5000, hlt⟩, rfl⟩
  refine ⟨t, flush0_7 t, ?_⟩
  rw [mem_block]
  obtain ⟨-, -, -, -, -, -, -, e0, e1⟩ := block_positions t
  intro a
  match a with
  | ⟨0, _⟩ =>
    show win0_7.index t (0 : Fin 2) * 5000 ≤ (i 0).val ∧ (i 0).val < win0_7.index t (0 : Fin 2) * 5000 + 5000
    rw [e0, ht]
    exact row_in_block (i 0).val
  | ⟨1, _⟩ =>
    show win0_7.index t (1 : Fin 2) * 64 ≤ (i 1).val ∧ (i 1).val < win0_7.index t (1 : Fin 2) * 64 + 64
    rw [e1, Nat.zero_mul, Nat.zero_add]
    exact ⟨Nat.zero_le _, idx2_lt1 i⟩

end Cert.BlockRows

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.BlockEntry.lean ====
/-
  One block of the kernel, read at an entry.

  The kernel works on 5000 node rows at a time. From a block h of the node features, the matching blocks a and e of
  the two summed arrays, the three 64-row bands W₀, W₁, W₂ of the weight matrix and the bias as a one-row array, it
  stores

      max( ((h·W₀ + a·W₁) + e·W₂) + bias row spread over the block's rows, 0 ).

  Each product is taken into an accumulator that is zero everywhere, so at an entry it is the plain sum over the 64
  contracted positions; rounding the operands to a shorter float format changes nothing over the extended reals.
-/
import proofs.«152367_j64158221468060_2_alg».proof.Proof.Gen.KernelIdeal.Skeleton
import proofs.«152367_j64158221468060_2_alg».proof.Proof.LibDenseEntry
import Idealize.ShloMosaic.Lib.ValueLayout
import Idealize.ShloMosaic.Lib.Pipeline.Value

noncomputable section

namespace Cert.BlockEntry

open Cert.KernelIdeal Cert.KernelIdeal.Facts₀ Cert.KernelIdeal.Gen Idealize.ShloMosaic Idealize.ShloMosaic.ValueIdx

/-- A block of 5000 rows times a 64-row band, into the zero accumulator, at (p, q): the sum over the 64 positions. -/
theorem band_product (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  Cert.LibDenseEntry.matmul_plain_zero_apply (M := 5000) (K := 64) (N := 64)
    dot_S5000x64_S64x64_S5000x64_1_0_0_1_n_n rfl rfl rfl rfl rfl rfl none x w p q

/-- What the kernel stores for a block, at row p and column q of the block. -/
theorem block_entry (x0 x1 x2 : Vec Ideal S5000x64 .f32) (x3 x4 x5 : Vec Ideal S64x64 .f32) (x6 : Vec Ideal S1x64 .f32)
    (p : Fin 5000) (q : Fin 64) :
    k0_pay1 x0 x1 x2 x3 x4 x5 x6 (ix2 p q)
      = max ((((∑ k : Fin 64, x0 (ix2 p k) * x3 (ix2 k q)) + ∑ k : Fin 64, x1 (ix2 p k) * x4 (ix2 k q))
          + ∑ k : Fin 64, x2 (ix2 p k) * x5 (ix2 k q)) + x6 (ix2 (0 : Fin 1) q)) 0 := by
  unfold k0_pay1
  simp only [shapeCast_self, maximumf_apply, addf_apply, broadcast_apply, band_product, truncf_apply,
    broadcastTo_1b_ab_apply, Scalar.ofBits, Ideal.ofBits_def, Ideal.ofBits_zero_f32]

end Cert.BlockEntry

end
-- ==== Proof.NodeUpdate.lean ====
/-
  The dense stage of one graph-network layer, as one function of its arrays.

  Every node r has a feature row h(r, ·) of 64 numbers; a(r, ·) is the sum of the feature rows of the nodes that
  send it an edge, and e(r, ·) the sum of the feature rows of its incoming edges. With a weight matrix W of
  192 rows and 64 columns read as three bands of 64 rows (rows 0–63, 64–127, 128–191) and a bias row b, the
  node's new row is

      out(r, q) = max( ∑ₖ h(r,k)·W(k,q) + ∑ₖ a(r,k)·W(64+k,q) + ∑ₖ e(r,k)·W(128+k,q) + b(q), 0 ),   k < 64.

  The same number is the rectified affine image of the 192-long row (h, a, e) laid end to end, because a sum over
  192 positions is the sum of its three stretches of 64 taken in order — a regrouping of one sum, which holds in
  any commutative monoid and so on the extended reals with no finiteness asked of any entry.
-/
import Idealize.ShloMosaic.PureOps.Ideal
import Idealize.ShloMosaic.Lib.ValueIdx
import Mathlib.Algebra.BigOperators.Fin

noncomputable section

namespace Cert.NodeUpdate

open Idealize.ShloMosaic Idealize.ShloMosaic.ValueIdx

/-- Row `k` of the first band of the weight matrix: row `k` itself. -/
abbrev band0 (k : Fin 64) : Fin 192 := ⟨k.val, by have := k.isLt; omega⟩
/-- Row `k` of the second band: row `64 + k`. -/
abbrev band1 (k : Fin 64) : Fin 192 := ⟨64 + k.val, by have := k.isLt; omega⟩
/-- Row `k` of the third band: row `128 + k`. -/
abbrev band2 (k : Fin 64) : Fin 192 := ⟨128 + k.val, by have := k.isLt; omega⟩

/-- Entry (r, q) of the layer's output: the three band products added in order, the bias, the rectifier. -/
def entry (h a e : (⟨2, ![100000, 64]⟩ : Shape).Idx → EReal) (W : (⟨2, ![192, 64]⟩ : Shape).Idx → EReal)
    (b : (⟨1, ![64]⟩ : Shape).Idx → EReal) (r : Fin 100000) (q : Fin 64) : EReal :=
  max ((((∑ k : Fin 64, h (ix2 r k) * W (ix2 (band0 k) q)) + ∑ k : Fin 64, a (ix2 r k) * W (ix2 (band1 k) q))
      + ∑ k : Fin 64, e (ix2 r k) * W (ix2 (band2 k) q)) + b (ix1 q)) 0

/-- The layer's output array: `entry` at every index. -/
def update (h a e : (⟨2, ![100000, 64]⟩ : Shape).Idx → EReal) (W : (⟨2, ![192, 64]⟩ : Shape).Idx → EReal)
    (b : (⟨1, ![64]⟩ : Shape).Idx → EReal) : (⟨2, ![100000, 64]⟩ : Shape).Idx → EReal :=
  fun i => entry h a e W b ⟨(i 0).val, idx2_lt0 i⟩ ⟨(i 1).val, idx2_lt1 i⟩

/-- The output array read at the index with coordinates (r, q). -/
theorem update_apply (h a e : (⟨2, ![100000, 64]⟩ : Shape).Idx → EReal) (W : (⟨2, ![192, 64]⟩ : Shape).Idx → EReal)
    (b : (⟨1, ![64]⟩ : Shape).Idx → EReal) (r : Fin 100000) (q : Fin 64) :
    update h a e W b (ix2 r q) = entry h a e W b r q := rfl

/-- Entry (r, q) when the three bands of the weight matrix come as three arrays of 64 rows and the bias as an array of
    one row: the same three products, bias and rectifier. -/
def entryOfBands (h a e : (⟨2, ![100000, 64]⟩ : Shape).Idx → EReal) (W0 W1 W2 : (⟨2, ![64, 64]⟩ : Shape).Idx → EReal)
    (brow : (⟨2, ![1, 64]⟩ : Shape).Idx → EReal) (r : Fin 100000) (q : Fin 64) : EReal :=
  max ((((∑ k : Fin 64, h (ix2 r k) * W0 (ix2 k q)) + ∑ k : Fin 64, a (ix2 r k) * W1 (ix2 k q))
      + ∑ k : Fin 64, e (ix2 r k) * W2 (ix2 k q)) + brow (ix2 (0 : Fin 1) q)) 0

/-- The output array from the bands as separate arrays. -/
def updateOfBands (h a e : (⟨2, ![100000, 64]⟩ : Shape).Idx → EReal) (W0 W1 W2 : (⟨2, ![64, 64]⟩ : Shape).Idx → EReal)
    (brow : (⟨2, ![1, 64]⟩ : Shape).Idx → EReal) : (⟨2, ![100000, 64]⟩ : Shape).Idx → EReal :=
  fun i => entryOfBands h a e W0 W1 W2 brow ⟨(i 0).val, idx2_lt0 i⟩ ⟨(i 1).val, idx2_lt1 i⟩

/-- That array read at the index with coordinates (r, q). -/
theorem updateOfBands_apply (h a e : (⟨2, ![100000, 64]⟩ : Shape).Idx → EReal) (W0 W1 W2 : (⟨2, ![64, 64]⟩ : Shape).Idx → EReal)
    (brow : (⟨2, ![1, 64]⟩ : Shape).Idx → EReal) (r : Fin 100000) (q : Fin 64) :
    updateOfBands h a e W0 W1 W2 brow (ix2 r q) = entryOfBands h a e W0 W1 W2 brow r q := rfl

/-- When the three arrays are the three bands of `W` and the one-row array is `b`, the two forms are one array. -/
theorem updateOfBands_eq (h a e : (⟨2, ![100000, 64]⟩ : Shape).Idx → EReal) (W : (⟨2, ![192, 64]⟩ : Shape).Idx → EReal)
    (b : (⟨1, ![64]⟩ : Shape).Idx → EReal) (W0 W1 W2 : (⟨2, ![64, 64]⟩ : Shape).Idx → EReal)
    (brow : (⟨2, ![1, 64]⟩ : Shape).Idx → EReal)
    (h0 : ∀ (k q : Fin 64), W0 (ix2 k q) = W (ix2 (band0 k) q)) (h1 : ∀ (k q : Fin 64), W1 (ix2 k q) = W (ix2 (band1 k) q))
    (h2 : ∀ (k q : Fin 64), W2 (ix2 k q) = W (ix2 (band2 k) q)) (hb : ∀ q : Fin 64, brow (ix2 (0 : Fin 1) q) = b (ix1 q)) :
    updateOfBands h a e W0 W1 W2 brow = update h a e W b := by
  funext i
  unfold updateOfBands update entryOfBands entry
  simp only [h0, h1, h2, hb]

/-- A sum over 192 positions is the sum of its three stretches of 64, in order. -/
theorem sum_three_bands {M : Type*} [AddCommMonoid M] (f : Fin 192 → M) :
    ∑ k : Fin 192, f k = ((∑ k : Fin 64, f (band0 k)) + ∑ k : Fin 64, f (band1 k)) + ∑ k : Fin 64, f (band2 k) := by
  have h1 : ∑ k : Fin 192, f k = ∑ k : Fin 128, f (Fin.castAdd 64 k) + ∑ k : Fin 64, f (Fin.natAdd 128 k) :=
    Fin.sum_univ_add (a := 128) (b := 64) f
  have h2 : ∑ k : Fin 128, f (Fin.castAdd 64 k)
      = ∑ k : Fin 64, f (Fin.castAdd 64 (Fin.castAdd 64 k)) + ∑ k : Fin 64, f (Fin.castAdd 64 (Fin.natAdd 64 k)) :=
    Fin.sum_univ_add (a := 64) (b := 64) fun k => f (Fin.castAdd 64 k)
  rw [h1, h2]
  rfl

end Cert.NodeUpdate

end
-- ==== Proof.BlockUpdate.lean ====
/-
  What one grid point writes back, for any arrays.

  Take any three arrays of 100000 × 64 numbers, any three of 64 × 64 and any one-row array of 64. At point t the kernel
  reads rows 5000·t … 5000·t + 4999 of the first three and the other four whole, and what it stores is, entry by
  entry, the three band products added in order, the one row added to every row, rectified. Its write-back puts
  entry (p, q) of that at row 5000·t + p, column q of the output. So what point t writes back is the restriction
  to its rows of ONE array, `NodeUpdate.updateOfBands` of the seven arrays — whatever the arrays hold.
-/
import proofs.«152367_j64158221468060_2_alg».proof.Proof.BlockRows
import proofs.«152367_j64158221468060_2_alg».proof.Proof.BlockEntry
import proofs.«152367_j64158221468060_2_alg».proof.Proof.NodeUpdate

noncomputable section

open Idealize.ShloMosaic Idealize.ShloMosaic.TcCoe Idealize.SL.Sem

namespace Cert.BlockUpdate

open Cert.KernelIdeal Cert.KernelIdeal.Facts₀ Cert.KernelIdeal.Gen Idealize.ShloMosaic.ValueIdx Cert.NodeUpdate Cert.BlockRows

/-- What point `t` stores from its blocks of any seven arrays, written back, is its rows of `updateOfBands` of the
    arrays. -/
theorem written_block (A0 A1 A2 : (⟨S100000x64, .f32⟩ : BufTy).Contents (Elt Ideal))
    (A3 A4 A5 : (⟨S64x64, .f32⟩ : BufTy).Contents (Elt Ideal)) (A6 : (⟨S1x64, .f32⟩ : BufTy).Contents (Elt Ideal))
    (t : Fin cfg0.N) :
    (cfg0.win 7).cut (grid0.coords t)
        (k0_pay1 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (updateOfBands A0 A1 A2 A3 A4 A5 A6) := by
  funext j
  obtain ⟨p, q, rfl⟩ : ∃ (p : Fin 5000) (q : Fin 64), j = ix2 p q := ⟨j 0, j 1, eq_ix2 (n0 := 5000) (n1 := 64) j⟩
  have hN : cfg0.N = 20 := N_0
  obtain ⟨i, hi⟩ : ∃ i : Fin 100000, i.val = t.val * 5000 + p.val :=
    ⟨⟨t.val * 5000 + p.val, row_lt t.val p.val (hN ▸ t.isLt) p.isLt⟩, rfl⟩
  refine (written_apply _ t p q).trans ?_
  refine (Cert.BlockEntry.block_entry _ _ _ _ _ _ _ p q).trans ?_
  show _ = updateOfBands A0 A1 A2 A3 A4 A5 A6 (((cfg0.win 7).blk t).view.emb (ix2 p q))
  rw [out_position t p q i hi, updateOfBands_apply]
  unfold entryOfBands
  simp only [rows_h A0 t p _ i hi, rows_a A1 t p _ i hi, rows_e A2 t p _ i hi, whole_w0 A3 t, whole_w1 A4 t,
    whole_w2 A5 t, whole_b A6 t]

end Cert.BlockUpdate

end
-- ==== Proof.KernelValue.lean ====
/-
  The array the kernel leaves, as one function of the arrays its windows are cut from.

  The grid has 20 points; point t works on node rows 5000·t … 5000·t + 4999. What it writes back is those rows of
  ONE array: the layer's output from the node features, the two summed arrays, the three weight bands and the one-row
  bias, each as the kernel finds it when it starts (`BlockUpdate.written_block`, which holds whatever the arrays are).
  Every row of the output lies in exactly one point's block, so after the run the output array is that array.
-/
import proofs.«152367_j64158221468060_2_alg».proof.Proof.Gen.KernelIdeal.Value
import proofs.«152367_j64158221468060_2_alg».proof.Proof.BlockUpdate
import Idealize.ShloMosaic.Lib.Pipeline.Value

noncomputable section

open Idealize.ShloMosaic Idealize.ShloMosaic.TcCoe Idealize.SL.Sem
open Idealize.ShloMosaic.Pipeline (Dat)

namespace Cert.KernelValue

open Cert.KernelIdeal Cert.KernelIdeal.Facts₀ Cert.KernelIdeal.Gen Cert.KernelIdeal.Value Idealize.ShloMosaic.ValueIdx Cert.NodeUpdate Cert.BlockRows

variable (m : (ℓ : Loc nD τ sig) → Buf (Elt Ideal) ℓ) (ρ : Dev nD → PrngReg)

/-- The layer's output from the seven arrays the kernel's windows are cut from, as the kernel finds them. -/
def fromWindows (c : Dev nD) : S100000x64.Idx → EReal :=
  updateOfBands (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- What point `t` writes back is its rows of that one array. -/
theorem flushed_eq (c : Dev nD) (t : Fin cfg0.N) :
    (dats m 0 c).flushed 7 t = ((cfg0.win 7).blk t).view.read (Elt Ideal) (fromWindows m c) := by
  rw [flushed7]
  unfold out0_7
  rw [View.canon_unit_zero zero_offsets]
  simp only [View.ld_unit_zero (S := S5000x64) zero_offsets, View.ld_unit_zero (S := S64x64) zero_offsets,
    View.ld_unit_zero (S := S1x64) zero_offsets]
  unfold fromWindows iblk
  exact Cert.BlockUpdate.written_block _ _ _ _ _ _ _ t

/-- The output array after the run: every row is in some point's block. -/
theorem final_windows (c : Dev nD) : (dats m 0 c).arrAt 7 cfg0.N = fromWindows m c :=
  (dats m 0 c).arrAt_eq_of_cover 7 (fromWindows m c) (fun t _ => flushed_eq m c t) cover

/-- The kernel's run, read: the output array at `fromWindows`, the arguments unchanged. -/
theorem run_windows : θ_run defs (onTc (τ := τ) (main (F := Ideal))) ⟨m, fun _ => 0, ρ⟩ fun r => ∀ c : Dev nD,
      r.2.mem ((c : Thread nD τ).loc main_v17) = fromWindows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_windows m c), (h c).2⟩) (run_blocks m ρ)

end Cert.KernelValue

end
-- ==== Proof.HostArrays.lean ====
/-
  What the kernel finds in the arrays it reads.

  Before the kernel starts, the program gathers each edge's source row of the node features, adds the gathered rows
  up per destination node and the edge feature rows up per destination node, cuts the weight matrix into its three
  bands of 64 rows and reads the bias as an array of one row. The node features themselves are an argument that
  nothing has written. The two summed arrays are produced by exactly the operations the reference program applies
  to the same arguments, so they are named by the reference's own stages and never opened: whatever a gather or a
  summation by destination does with an index that is out of range, it does the same on both sides.
-/
import proofs.«152367_j64158221468060_2_alg».proof.Proof.Gen.KernelIdeal.Frame
import proofs.«152367_j64158221468060_2_alg».proof.Proof.Gen.ReferenceIdeal.Read
import Idealize.ShloMosaic.Lib.StableHlo.Run

noncomputable section

open Idealize.ShloMosaic Idealize.ShloMosaic.TcCoe Idealize.SL.Sem

namespace Cert.HostArrays

open Cert.KernelIdeal Cert.KernelIdeal.Facts₀ Cert.KernelIdeal.Gen

variable (m : (ℓ : Loc nD τ sig) → Buf (Elt Ideal) ℓ)

/-- The node features: the argument, as launched. -/
theorem found_h (c : Dev nD) :
    (V m c (Pipeline.arrRef spec0 0) : S100000x64.Idx → EReal) = m ((c : Thread nD τ).loc main_arg0) :=
  V_main_arg0 m c

/-- The summed neighbour features: the reference's stage of the same name, of the same arguments. -/
theorem found_a (c : Dev nD) :
    (V m c (Pipeline.arrRef spec0 1) : S100000x64.Idx → EReal)
      = Cert.ReferenceIdeal.Read.val_main_v9 (F := Ideal) (m ((c : Thread nD τ).loc main_arg0))
          (m ((c : Thread nD τ).loc main_arg2)) (m ((c : Thread nD τ).loc main_arg3)) := by
  show (V m c main_v9 : S100000x64.Idx → EReal) = _
  dsimp only [V, hostOps0]
  after_results <;> rfl

/-- The summed edge features: the reference's stage, of the same arguments. -/
theorem found_e (c : Dev nD) :
    (V m c (Pipeline.arrRef spec0 2) : S100000x64.Idx → EReal)
      = Cert.ReferenceIdeal.Read.val_main_v12 (F := Ideal) (m ((c : Thread nD τ).loc main_arg1))
          (m ((c : Thread nD τ).loc main_arg3)) := by
  show (V m c main_v12 : S100000x64.Idx → EReal) = _
  dsimp only [V, hostOps0]
  after_results <;> rfl

/-- The first weight band: rows 0–63 of the weight matrix. -/
theorem found_w0 (c : Dev nD) :
    (V m c (Pipeline.arrRef spec0 3) : S64x64.Idx → EReal)
      = extractStridedSlice S64x64 ![0, 0] (m ((c : Thread nD τ).loc main_arg4)) Facts₀.slices_S192x64_S64x64_0_0 := by
  show (V m c main_v13 : S64x64.Idx → EReal) = _
  dsimp only [V, hostOps0]
  after_results <;> rfl

/-- The second weight band: rows 64–127. -/
theorem found_w1 (c : Dev nD) :
    (V m c (Pipeline.arrRef spec0 4) : S64x64.Idx → EReal)
      = extractStridedSlice S64x64 ![64, 0] (m ((c : Thread nD τ).loc main_arg4)) Facts₀.slices_S192x64_S64x64_64_0 := by
  show (V m c main_v14 : S64x64.Idx → EReal) = _
  dsimp only [V, hostOps0]
  after_results <;> rfl

/-- The third weight band: rows 128–191. -/
theorem found_w2 (c : Dev nD) :
    (V m c (Pipeline.arrRef spec0 5) : S64x64.Idx → EReal)
      = extractStridedSlice S64x64 ![128, 0] (m ((c : Thread nD τ).loc main_arg4)) Facts₀.slices_S192x64_S64x64_128_0 := by
  show (V m c main_v15 : S64x64.Idx → EReal) = _
  dsimp only [V, hostOps0]
  after_results <;> rfl

/-- The bias as an array of one row. -/
theorem found_b (c : Dev nD) :
    (V m c (Pipeline.arrRef spec0 6) : S1x64.Idx → EReal)
      = shapeCast S1x64 (m ((c : Thread nD τ).loc main_arg5)) Facts₀.shapeCasts_S64_S1x64 := by
  show (V m c main_v16 : S1x64.Idx → EReal) = _
  dsimp only [V, hostOps0]
  after_results <;> rfl

end Cert.HostArrays

end
-- ==== Proof.KernelResult.lean ====
/-
  The kernel's result, as a function of the program's arguments.

  The output array is the layer's output from the seven arrays the kernel finds (`KernelValue`), and what it finds is
  the node features, the two summed arrays, the three bands of the weight matrix and the bias as one row
  (`HostArrays`). A band read at (k, q) is the weight matrix at (k, q), (64 + k, q) or (128 + k, q), and the one-row
  bias at (0, q) is the bias at q, so the output is `NodeUpdate.update` of the node features, the two summed arrays,
  the weight matrix and the bias.
-/
import proofs.«152367_j64158221468060_2_alg».proof.Proof.KernelValue
import proofs.«152367_j64158221468060_2_alg».proof.Proof.HostArrays
import Idealize.ShloMosaic.Lib.ValueLayout

noncomputable section

open Idealize.ShloMosaic Idealize.ShloMosaic.TcCoe Idealize.SL.Sem

namespace Cert.KernelResult

open Cert.KernelIdeal Cert.KernelIdeal.Facts₀ Cert.KernelIdeal.Gen Idealize.ShloMosaic.ValueIdx Cert.NodeUpdate

/-- `updateOfBands` of arrays equal to `h'`, `a'`, `e'`, of the three bands of `W` and of `b` as one row is `update`. -/
theorem update_of_found {h h' a a' e e' : (⟨2, ![100000, 64]⟩ : Shape).Idx → EReal} (W : (⟨2, ![192, 64]⟩ : Shape).Idx → EReal)
    (b : (⟨1, ![64]⟩ : Shape).Idx → EReal) {W0 W1 W2 : (⟨2, ![64, 64]⟩ : Shape).Idx → EReal}
    {brow : (⟨2, ![1, 64]⟩ : Shape).Idx → EReal} (eh : h = h') (ea : a = a') (ee : e = e')
    (h0 : ∀ (k q : Fin 64), W0 (ix2 k q) = W (ix2 (band0 k) q)) (h1 : ∀ (k q : Fin 64), W1 (ix2 k q) = W (ix2 (band1 k) q))
    (h2 : ∀ (k q : Fin 64), W2 (ix2 k q) = W (ix2 (band2 k) q)) (hb : ∀ q : Fin 64, brow (ix2 (0 : Fin 1) q) = b (ix1 q)) :
    updateOfBands h a e W0 W1 W2 brow = update h' a' e' W b := by
  subst eh ea ee
  exact updateOfBands_eq h a e W b W0 W1 W2 brow h0 h1 h2 hb

variable (m : (ℓ : Loc nD τ sig) → Buf (Elt Ideal) ℓ) (ρ : Dev nD → PrngReg)

/-- The kernel's output array, from the program's arguments. -/
abbrev result (c : Dev nD) : S100000x64.Idx → EReal :=
  update (m ((c : Thread nD τ).loc main_arg0))
    (Cert.ReferenceIdeal.Read.val_main_v9 (F := Ideal) (m ((c : Thread nD τ).loc main_arg0))
      (m ((c : Thread nD τ).loc main_arg2)) (m ((c : Thread nD τ).loc main_arg3)))
    (Cert.ReferenceIdeal.Read.val_main_v12 (F := Ideal) (m ((c : Thread nD τ).loc main_arg1))
      (m ((c : Thread nD τ).loc main_arg3)))
    (m ((c : Thread nD τ).loc main_arg4)) (m ((c : Thread nD τ).loc main_arg5))

/-- What the kernel leaves is `result`. -/
theorem fromWindows_eq (c : Dev nD) : Cert.KernelValue.fromWindows m c = result m c := by
  unfold Cert.KernelValue.fromWindows
  exact update_of_found (m ((c : Thread nD τ).loc main_arg4)) (m ((c : Thread nD τ).loc main_arg5))
    (Cert.HostArrays.found_h m c) (Cert.HostArrays.found_a m c) (Cert.HostArrays.found_e m c)
    (fun k q => (congrFun (Cert.HostArrays.found_w0 m c) (ix2 k q)).trans
      (slice2_axis0_apply 0 (m ((c : Thread nD τ).loc main_arg4)) Facts₀.slices_S192x64_S64x64_0_0 k q (band0 k) (Nat.zero_add _).symm))
    (fun k q => (congrFun (Cert.HostArrays.found_w1 m c) (ix2 k q)).trans
      (slice2_axis0_apply 64 (m ((c : Thread nD τ).loc main_arg4)) Facts₀.slices_S192x64_S64x64_64_0 k q (band1 k) rfl))
    (fun k q => (congrFun (Cert.HostArrays.found_w2 m c) (ix2 k q)).trans
      (slice2_axis0_apply 128 (m ((c : Thread nD τ).loc main_arg4)) Facts₀.slices_S192x64_S64x64_128_0 k q (band2 k) rfl))
    (fun q => (congrFun (Cert.HostArrays.found_b m c) (ix2 (0 : Fin 1) q)).trans
      (shapeCast_a_1a_apply (m ((c : Thread nD τ).loc main_arg5)) Facts₀.shapeCasts_S64_S1x64 0 q))

/-- The kernel's run, read: the output array at `result`, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (fromWindows_eq m c), (h c).2⟩) (Cert.KernelValue.run_windows m ρ)

end Cert.KernelResult

end
-- ==== Proof.LibConcatBands.lean ====
/-
  Three arrays of one shape [a, b] joined along their second axis, read at an index.

  The joined array has the first piece in its columns 0 … b−1, the second in columns b … 2b−1 and the third in columns
  2b … 3b−1; its rows are the pieces' rows. So at row r the joined array reads, at column k, b + k and b + b + k
  (k < b), the first, second and third piece at (r, k).
-/
import Idealize.ShloMosaic.Lib.Pipeline.Value
import Idealize.ShloMosaic.Lib.ValueIdx

noncomputable section

namespace Cert.LibConcatBands

open Idealize.ShloMosaic Idealize.ShloMosaic.ValueIdx

variable {α : Type} {a b n : ℕ}

/-- The three pieces, each with its shape, in order. -/
abbrev pieces (x0 x1 x2 : (⟨2, ![a, b]⟩ : Shape).Idx → α) : List ((s : Shape) × (s.Idx → α)) :=
  [⟨⟨2, ![a, b]⟩, x0⟩, ⟨⟨2, ![a, b]⟩, x1⟩, ⟨⟨2, ![a, b]⟩, x2⟩]

/-- A column inside the first band reads the first piece. -/
theorem join3_first (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = k.val) :
    concatenate ⟨2, ![a, n]⟩ 1 (pieces x0 x1 x2) h (ix2 r c) = x0 (ix2 r k) :=
  concatenate_apply_piece (t := ⟨2, ![a, n]⟩) 1 (pieces x0 x1 x2) h (ix2 r c) 0 (by show (0 : ℕ) < 3; omega) ⟨2, ![a, b]⟩ x0 rfl rfl
    0 rfl (ix2 r k)
    (fun d hd => by
      match d with
      | ⟨0, _⟩ => rfl
      | ⟨1, _⟩ => exact absurd rfl hd)
    (by show 0 + k.val = c.val; omega)

/-- A column inside the second band reads the second piece. -/
theorem join3_second (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = b + k.val) :
    concatenate ⟨2, ![a, n]⟩ 1 (pieces x0 x1 x2) h (ix2 r c) = x1 (ix2 r k) :=
  concatenate_apply_piece (t := ⟨2, ![a, n]⟩) 1 (pieces x0 x1 x2) h (ix2 r c) 1 (by show (1 : ℕ) < 3; omega) ⟨2, ![a, b]⟩ x1 rfl rfl
    b rfl (ix2 r k)
    (fun d hd => by
      match d with
      | ⟨0, _⟩ => rfl
      | ⟨1, _⟩ => exact absurd rfl hd)
    (by show b + k.val = c.val; omega)

/-- A column inside the third band reads the third piece. -/
theorem join3_third (x0 x1 x2 : (⟨2, ![a, b]⟩ : Shape).Idx → α)
    (h : Shape.Concatenates ((pieces x0 x1 x2).map (·.1)) ⟨2, ![a, n]⟩ 1)
    (r : Fin a) (c : Fin n) (k : Fin b) (hc : c.val = b + b + k.val) :
    concatenate ⟨2, ![a, n]⟩ 1 (pieces x0 x1 x2) h (ix2 r c) = x2 (ix2 r k) :=
  concatenate_apply_piece (t := ⟨2, ![a, n]⟩) 1 (pieces x0 x1 x2) h (ix2 r c) 2 (by show (2 : ℕ) < 3; omega) ⟨2, ![a, b]⟩ x2 rfl rfl
    (b + b) rfl (ix2 r k)
    (fun d hd => by
      match d with
      | ⟨0, _⟩ => rfl
      | ⟨1, _⟩ => exact absurd rfl hd)
    (by show b + b + k.val = c.val; omega)

end Cert.LibConcatBands

end
-- ==== Proof.ReferenceUpdate.lean ====
/-
  The reference program's result is the layer's output array.

  The reference joins, for every node, its own feature row, the summed rows of its in-neighbours and the summed rows
  of its incoming edges into one row of 192 numbers, multiplies the joined array by the whole 192-row weight matrix,
  adds the bias row and rectifies. Read at (r, q): the product is a sum over 192 contracted positions, position k of
  the joined row is position k of the first piece, k − 64 of the second or k − 128 of the third, and the sum's three
  stretches of 64 are the three band products of `NodeUpdate.entry`, in its order. The two summed arrays are kept as
  the reference's own stages: nothing here looks inside them.
-/
import proofs.«152367_j64158221468060_2_alg».proof.Proof.Gen.ReferenceIdeal.Read
import proofs.«152367_j64158221468060_2_alg».proof.Proof.NodeUpdate
import proofs.«152367_j64158221468060_2_alg».proof.Proof.LibConcatBands

noncomputable section

namespace Cert.ReferenceUpdate

open Cert.ReferenceIdeal Cert.ReferenceIdeal.Facts₀ Cert.ReferenceIdeal.Read Idealize.ShloMosaic Idealize.ShloMosaic.ValueIdx Cert.NodeUpdate

/-- The joined row at position `k` of the contraction, at output index (r, q): row r, column k. -/
theorem joined_index (r : Fin 100000) (q : Fin 64) (k : Fin 192) : lidx_main_v14 (ix2 r q) k = ix2 r k :=
  funext fun a => Fin.ext (by match a with | ⟨0, _⟩ => rfl | ⟨1, _⟩ => rfl)

/-- The weight matrix at position `k` of the contraction, at output index (r, q): row k, column q. -/
theorem weight_index (r : Fin 100000) (q : Fin 64) (k : Fin 192) : ridx_main_v14 (ix2 r q) k = ix2 k q :=
  funext fun a => Fin.ext (by match a with | ⟨0, _⟩ => rfl | ⟨1, _⟩ => rfl)

/-- The bias row spread over the nodes, at (r, q), is the bias at q. -/
theorem bias_index (r : Fin 100000) (q : Fin 64) : idx_main_v15 (idx_main_v16 (ix2 r q)) = ix1 q :=
  funext fun a => Fin.ext (by match a with | ⟨0, _⟩ => rfl)

/-- The reference's last stage is `NodeUpdate.update` of the node features, the two summed arrays as the reference
    computes them, the weights and the bias. -/
theorem result_eq (x0 : (⟨S100000x64, .f32⟩ : BufTy).Contents (Elt Ideal)) (x1 : (⟨S1600000x64, .f32⟩ : BufTy).Contents (Elt Ideal))
    (x2 x3 : (⟨S1600000, .i32⟩ : BufTy).Contents (Elt Ideal)) (x4 : (⟨S192x64, .f32⟩ : BufTy).Contents (Elt Ideal))
    (x5 : (⟨S64, .f32⟩ : BufTy).Contents (Elt Ideal)) :
    val_main_v18 (F := Ideal) x0 x1 x2 x3 x4 x5
      = update x0 (val_main_v9 (F := Ideal) x0 x2 x3) (val_main_v12 (F := Ideal) x1 x3) x4 x5 := by
  funext i
  obtain ⟨r, q, rfl⟩ : ∃ (r : Fin 100000) (q : Fin 64), i = ix2 r q := ⟨i 0, i 1, eq_ix2 i⟩
  rw [update_apply, val_main_v18_apply, val_main_v17_apply, val_main_v14_apply, val_main_v16_apply, val_main_v15_apply,
    val_main_call0_v0_apply, val_main_call0_cst_apply, bias_index, sum_three_bands]
  simp only [joined_index, weight_index]
  unfold val_main_v13
  generalize val_main_v9 (F := Ideal) x0 x2 x3 = a
  generalize val_main_v12 (F := Ideal) x1 x3 = e
  have hb0 : ∀ k : Fin 64, concatenate S100000x192 1 [⟨S100000x64, x0⟩, ⟨S100000x64, a⟩, ⟨S100000x64, e⟩]
      concatenates_S100000x64_S100000x64_S100000x64_S100000x192_d1 (ix2 r (band0 k)) = x0 (ix2 r k) := fun k =>
    Cert.LibConcatBands.join3_first x0 a e _ r (band0 k) k rfl
  have hb1 : ∀ k : Fin 64, concatenate S100000x192 1 [⟨S100000x64, x0⟩, ⟨S100000x64, a⟩, ⟨S100000x64, e⟩]
      concatenates_S100000x64_S100000x64_S100000x64_S100000x192_d1 (ix2 r (band1 k)) = a (ix2 r k) := fun k =>
    Cert.LibConcatBands.join3_second x0 a e _ r (band1 k) k rfl
  have hb2 : ∀ k : Fin 64, concatenate S100000x192 1 [⟨S100000x64, x0⟩, ⟨S100000x64, a⟩, ⟨S100000x64, e⟩]
      concatenates_S100000x64_S100000x64_S100000x64_S100000x192_d1 (ix2 r (band2 k)) = e (ix2 r k) := fun k =>
    Cert.LibConcatBands.join3_third x0 a e _ r (band2 k) k rfl
  simp only [hb0, hb1, hb2, Ideal.addf_def, Ideal.maximumf_def, Ideal.ofBits_def, Ideal.ofBits_zero_f32]
  rfl

end Cert.ReferenceUpdate

end
-- ==== Proof.lean ====
/-
  One dense layer of a graph network, computed two ways, gives the same array over the extended reals.

  For every node r: h(r, ·) is its feature row, a(r, ·) the sum of the feature rows of the nodes that send it an
  edge, e(r, ·) the sum of the feature rows of its incoming edges; W has 192 rows and 64 columns, b is a bias row.
  Both programs compute a and e by the same gather and the same two summations by destination node.

  The kernel then takes 5000 nodes at a time and forms  max( ((h·W₀ + a·W₁) + e·W₂) + b, 0 )  with W₀, W₁, W₂ the
  three bands of 64 rows of W. The reference joins (h, a, e) into rows of 192 numbers and forms  max( (h|a|e)·W + b, 0 ).
  At an entry, the reference's sum over 192 contracted positions is its three stretches of 64 added in order, which
  are the kernel's three products in the kernel's order: a regrouping of one sum, true in any commutative monoid, so
  no entry needs to be finite and the precondition is never opened. Rounding the kernel's operands to a shorter float
  format is the identity here.

  The modules: `NodeUpdate` (the array both sides equal, and the regrouping), `ReferenceUpdate` (the reference's result
  is that array), `BlockEntry` / `BlockRows` / `BlockUpdate` (one grid point of the kernel, for any arrays),
  `KernelValue` / `HostArrays` / `KernelResult` (the kernel's output array after all 20 points), and below the claims.
-/
import proofs.«152367_j64158221468060_2_alg».proof.Defs
import proofs.«152367_j64158221468060_2_alg».proof.Proof.Gen.Kernel
import proofs.«152367_j64158221468060_2_alg».proof.Proof.Gen.Kernel.Skeleton
import proofs.«152367_j64158221468060_2_alg».proof.Proof.Gen.Kernel.Launch
import proofs.«152367_j64158221468060_2_alg».proof.Proof.Gen.Kernel.Points
import proofs.«152367_j64158221468060_2_alg».proof.Proof.Gen.Kernel.Frame
import proofs.«152367_j64158221468060_2_alg».proof.Proof.Gen.KernelIdeal
import proofs.«152367_j64158221468060_2_alg».proof.Proof.Gen.KernelIdeal.Skeleton
import proofs.«152367_j64158221468060_2_alg».proof.Proof.Gen.KernelIdeal.Launch
import proofs.«152367_j64158221468060_2_alg».proof.Proof.Gen.KernelIdeal.Points
import proofs.«152367_j64158221468060_2_alg».proof.Proof.Gen.KernelIdeal.Frame
import proofs.«152367_j64158221468060_2_alg».proof.Proof.Gen.ReferenceIdeal
import proofs.«152367_j64158221468060_2_alg».proof.Proof.Gen.Pre_finite_inputs
import proofs.«152367_j64158221468060_2_alg».proof.Proof.Gen.KernelIdeal.Value
import proofs.«152367_j64158221468060_2_alg».proof.Proof.Gen.ReferenceIdeal.Run
import proofs.«152367_j64158221468060_2_alg».proof.Proof.Gen.ReferenceIdeal.Read
import proofs.«152367_j64158221468060_2_alg».proof.Proof.KernelResult
import proofs.«152367_j64158221468060_2_alg».proof.Proof.ReferenceUpdate
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories that agree on the arguments, the kernel's output array and the reference's result are the same
    array: both are `NodeUpdate.update` of the node features, the two summed arrays, the weights and the bias. -/
theorem algebraic : Cert.algebraic_KernelIdeal_ReferenceIdeal := by
  intro m ρ m' ρ' _ hagree
  refine ⟨fun c => Cert.KernelResult.result m c, Cert.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v18_eq _ _ _ _ _ _).trans (Cert.ReferenceUpdate.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
